-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S100000x256 .f32) (main_arg1 : IVec S800000 32) (main_arg2 : IVec S800000 32) (main_arg3 : FVec F S256x256 .f32) (main_arg4 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S1x256 : Shape := ⟨2, ![1, 256]⟩
abbrev S2000x256 : Shape := ⟨2, ![2000, 256]⟩

abbrev nBuf : Space → Nat
  | .hbm => 33
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x256, .f32⟩
  | .hbm, ⟨14, _⟩ => ⟨S_, .f32⟩
  | .hbm, ⟨15, _⟩ => ⟨S50000x256, .f32⟩
  | .hbm, ⟨16, _⟩ => ⟨S800000x1, .i32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S800000x1, .i32⟩
  | .hbm, ⟨28, _⟩ => ⟨S100000x256, .f32⟩
  | .hbm, ⟨29, _⟩ => ⟨S256x256, .f32⟩
  | .hbm, ⟨30, _⟩ => ⟨S256x256, .bf16⟩
  | .hbm, ⟨31, _⟩ => ⟨S1x256, .f32⟩
  | .hbm, ⟨32, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  transposes_S256x256_S256x256_1_0 : S256x256.Transposes [1, 0] S256x256
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v18) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S_ : Shape := ⟨0, ![]⟩
abbrev S800000x1 : Shape := ⟨2, ![800000, 1]⟩
abbrev S800000x256 : Shape := ⟨2, ![800000, 256]⟩
abbrev S50000x256 : Shape := ⟨2, ![50000, 256]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x256, .f32⟩
  | .hbm, ⟨14, _⟩ => ⟨S_, .f32⟩
  | .hbm, ⟨15, _⟩ => ⟨S50000x256, .f32⟩
  | .hbm, ⟨16, _⟩ => ⟨S800000x1, .i32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S100000x256, .f32⟩
  | .hbm, ⟨29, _⟩ => ⟨S800000x1, .i32⟩
  | .hbm, ⟨30, _⟩ => ⟨S100000x256, .f32⟩
  | .hbm, ⟨31, _⟩ => ⟨S_, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S256x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S100000x256 : S_.BroadcastsInDim S100000x256 (![] : Fin 0 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []

variable [Facts₀]

def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Layer.lean ====
/-
  The linear layer `h · wt + b` on the extended reals, entry by entry.

  For `h : [n, K]`, `wt : [K, d]` and a bias, entry (r, j) of the layer is `(∑ k, h (r, k) * wt (k, j)) + bias j`. The
  bias is held either as a one-row array `[1, d]` (as a kernel block sees it) or as a vector `[d]` (as the
  programs' argument is). An entry reads row `r` of `h`, column `j` of `wt` and bias entry `j` only, so a block of
  rows of `h` gives exactly the same entries as the whole of `h` at the block's rows.
-/
import proofs.«121955_j17892833755481_2_alg».proof.Proof.LibDense

noncomputable section

namespace Cert.Layer

open Idealize.ShloMosaic Idealize.ShloMosaic.ValueIdx

/-- The layer with the bias a one-row array. -/
def rowBias {n K d : ℕ} (h : (⟨2, ![n, K]⟩ : Shape).Idx → EReal) (wt : (⟨2, ![K, d]⟩ : Shape).Idx → EReal)
    (b : (⟨2, ![1, d]⟩ : Shape).Idx → EReal) : (⟨2, ![n, d]⟩ : Shape).Idx → EReal :=
  fun i => Cert.LibDense.prod h wt i + b (ix2 ⟨0, Nat.one_pos⟩ (i 1))

/-- The layer with the bias a vector. -/
def vecBias {n K d : ℕ} (h : (⟨2, ![n, K]⟩ : Shape).Idx → EReal) (wt : (⟨2, ![K, d]⟩ : Shape).Idx → EReal)
    (b : (⟨1, ![d]⟩ : Shape).Idx → EReal) : (⟨2, ![n, d]⟩ : Shape).Idx → EReal :=
  fun i => Cert.LibDense.prod h wt i + b (ix1 (i 1))

/-- An entry of the layer depends on one row of `h`, one column of `wt` and one bias entry: two sets of operands that
    agree there, possibly with different numbers of rows, give the same entry. -/
theorem rowBias_congr {n n' K d : ℕ} (h : (⟨2, ![n, K]⟩ : Shape).Idx → EReal) (h' : (⟨2, ![n', K]⟩ : Shape).Idx → EReal)
    (wt wt' : (⟨2, ![K, d]⟩ : Shape).Idx → EReal) (b b' : (⟨2, ![1, d]⟩ : Shape).Idx → EReal)
    (i : (⟨2, ![n, d]⟩ : Shape).Idx) (i' : (⟨2, ![n', d]⟩ : Shape).Idx)
    (hh : ∀ k : Fin K, h (ix2 (i 0) k) = h' (ix2 (i' 0) k)) (hw : ∀ k : Fin K, wt (ix2 k (i 1)) = wt' (ix2 k (i' 1)))
    (hb : b (ix2 ⟨0, Nat.one_pos⟩ (i 1)) = b' (ix2 ⟨0, Nat.one_pos⟩ (i' 1))) :
    rowBias h wt b i = rowBias h' wt' b' i' := by
  unfold rowBias Cert.LibDense.prod
  rw [hb, Finset.sum_congr rfl (fun k _ => congrArg₂ (· * ·) (hh k) (hw k))]

/-- With the one-row bias holding the vector's entries, the two forms of the layer are one function. -/
theorem rowBias_eq_vecBias {n K d : ℕ} (h : (⟨2, ![n, K]⟩ : Shape).Idx → EReal) (wt : (⟨2, ![K, d]⟩ : Shape).Idx → EReal)
    (b2 : (⟨2, ![1, d]⟩ : Shape).Idx → EReal) (b : (⟨1, ![d]⟩ : Shape).Idx → EReal)
    (hb : ∀ q : Fin d, b2 (ix2 ⟨0, Nat.one_pos⟩ q) = b (ix1 q)) : rowBias h wt b2 = vecBias h wt b := by
  funext i
  exact congrArg (Cert.LibDense.prod h wt i + ·) (hb (i 1))

end Cert.Layer

end
-- ==== Proof.BlockPayload.lean ====
/-
  What the kernel body computes on one block, entry by entry.

  The body loads a block `x0 : [2000, 256]` of rows, the whole weight `x1 : [256, 256]` (held in bf16) and the one-row
  bias `x2 : [1, 256]`, narrows the rows to bf16, multiplies on the matrix unit into a zero accumulator and adds the bias
  row broadcast down the block. On the extended reals a change of float format is the identity and the matrix product
  into zero is the row-by-column sum, so entry (p, q) of the stored block is `(∑ k, x0 (p, k) * x1 (k, q)) + x2 (0, q)`:
  the linear layer of the block.
-/
import proofs.«121955_j17892833755481_2_alg».proof.Proof.Gen.KernelIdeal.Skeleton
import proofs.«121955_j17892833755481_2_alg».proof.Proof.Layer
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The bias row broadcast down the block, at entry (p, q), is the row's entry q. -/
theorem bias_apply (x2 : Vec Ideal S1x256 .f32) (j : S2000x256.Idx) :
    broadcastTo S2000x256 x2 broadcasts_S1x256_S2000x256 j = x2 (ix2 ⟨0, Nat.one_pos⟩ (j 1)) := by
  refine broadcastTo_apply x2 broadcasts_S1x256_S2000x256 j (ix2 ⟨0, Nat.one_pos⟩ (j 1)) (fun a => ?_)
  match a with
  | ⟨0, _⟩ => exact (if_pos rfl).symm
  | ⟨1, _⟩ =>
    show (j 1).val = if (256 : Nat) = 1 then 0 else (j 1).val
    rw [if_neg (by decide)]

/-- The stored block is the linear layer of the loaded blocks, entry by entry. -/
theorem payload_apply (x0 : Vec Ideal S2000x256 .f32) (x1 : Vec Ideal S256x256 .bf16) (x2 : Vec Ideal S1x256 .f32)
    (j : S2000x256.Idx) : k0_pay1 x0 x1 x2 j = Cert.Layer.rowBias x0 x1 x2 j := by
  unfold k0_pay1
  show (FloatOps.matmul (F := Ideal) dot_S2000x256_S256x256_S2000x256_1_0_0_1_n_n none
        (truncf (F := Ideal) .bf16 (shapeCast S2000x256 x0 shapeCasts_S2000x256_S2000x256) bitsLt_bf16_f32)
        (shapeCast S256x256 x1 shapeCasts_S256x256_S256x256) (constant (F := Ideal) S2000x256 .f32 0x00000000#32) j : EReal)
      + broadcastTo S2000x256 (shapeCast S1x256 x2 shapeCasts_S1x256_S1x256) broadcasts_S1x256_S2000x256 j = _
  rw [shapeCast_self, shapeCast_self, shapeCast_self]
  refine congrArg₂ (· + ·) ?_ (bias_apply x2 j)
  exact Cert.LibDense.matmul_plain (M := 2000) (K := 256) (N := 256) (truncf .bf16 x0 bitsLt_bf16_f32) x1 j

end Cert.KernelIdeal.Block

end
-- ==== Proof.KernelArray.lean ====
/-
  From the blocks to the whole output array.

  The grid has 50 points; point `t` reads rows `2000·t … 2000·t + 1999` of the row operand `h`, the whole weight and the
  whole bias row, and writes back rows `2000·t … 2000·t + 1999` of the output. An entry of the linear layer reads one
  row of `h` only, so the block written at `t` is the restriction to those rows of ONE function of the whole arrays:
  the linear layer of `h`, the weight and the bias row as the region finds them. The 50 row bands cover all 100000 rows
  (row `r` lies in band `r / 2000`), so after the run the output array is that function everywhere.
-/
import proofs.«121955_j17892833755481_2_alg».proof.Proof.Gen.KernelIdeal.Value
import proofs.«121955_j17892833755481_2_alg».proof.Proof.BlockPayload

noncomputable section

namespace Cert.KernelIdeal.WholeArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The printed index maps over the 50 grid points: the row operand's block and the output's block are both band `t`
    of their arrays, at column block 0; the weight and the bias row are always their one whole block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output array as one function of the arrays the region finds: the linear layer of the row operand (`%18`), the
    bf16 weight (`%20`) and the bias row (`%21`). -/
abbrev layerOf (c : Dev nD) : S100000x256.Idx → EReal :=
  Cert.Layer.rowBias (V m c main_v18) (V m c main_v20) (V m c main_v21)

/-- What point `t` writes back is band `t` of the layer of the whole arrays. -/
theorem flushed_eq (c : Dev nD) (t : Fin cfg0.N) :
    (dats m 0 c).flushed 3 t = ((cfg0.win 3).blk t).view.read (Elt Ideal) (layerOf m c) := by
  rw [Value.flushed3]
  unfold out0_3
  rw [View.canon_unit_zero origin]
  simp only [View.ld_unit_zero (S := S2000x256) origin, View.ld_unit_zero (S := S256x256) origin,
    View.ld_unit_zero (S := S1x256) origin]
  obtain ⟨e00, e01, e10, e11, e20, e21, e30, e31⟩ := index_facts t
  funext j
  show k0_pay1 (iblk m c 0 t) (iblk m c 1 t) (iblk m c 2 t) j = layerOf m c (((cfg0.win 3).blk t).view.emb j)
  refine (Cert.KernelIdeal.Block.payload_apply (iblk m c 0 t) (iblk m c 1 t) (iblk m c 2 t) j).trans ?_
  refine Cert.Layer.rowBias_congr (iblk m c 0 t) (V m c main_v18) (iblk m c 1 t) (V m c main_v20) (iblk m c 2 t)
    (V m c main_v21) j (((cfg0.win 3).blk t).view.emb j) (fun k => ?_) (fun k => ?_) ?_
  · show V m c main_v18 (((cfg0.win 0).blk t).view.emb (ix2 (j 0) k)) = V m c main_v18 (ix2 ((((cfg0.win 3).blk t).view.emb j) 0) k)
    refine congrArg (V m c main_v18) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · show V m c main_v20 (((cfg0.win 1).blk t).view.emb (ix2 k (j 1))) = V m c main_v20 (ix2 k ((((cfg0.win 3).blk t).view.emb j) 1))
    refine congrArg (V m c main_v20) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · show V m c main_v21 (((cfg0.win 2).blk t).view.emb (ix2 ⟨0, Nat.one_pos⟩ (j 1))) = V m c main_v21 (ix2 ⟨0, Nat.one_pos⟩ ((((cfg0.win 3).blk t).view.emb j) 1))
    refine congrArg (V m c main_v21) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index of the array is in point `t`'s block iff each coordinate is in the block's range on its axis. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v22).slice (win0_3.rect t)).set ↔ _
  rw [View.set_slice_whole, Rect.mem_set_unit]
  exact Iff.rfl

/-- Every row lies in some point's band: row `r` in band `r / 2000`. -/
theorem cover (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  have hN : cfg0.N = 50 := N_0
  refine ⟨⟨(i 0).val / 2000, by rw [hN]; omega⟩, flush0_3 _, ?_⟩
  rw [mem_blk]
  obtain ⟨-, -, -, -, -, -, e30, e31⟩ := index_facts ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e31]; omega

/-- After the run the output array is the linear layer of the arrays the region finds. -/
theorem final (c : Dev nD) : (dats m 0 c).arrAt 3 cfg0.N = layerOf m c :=
  (dats m 0 c).arrAt_eq_of_cover 3 (layerOf m c) (fun t _ => flushed_eq m c t) cover

end Cert.KernelIdeal.WholeArray

end
-- ==== Proof.LibScatterSeed.lean ====
/-
  An accumulating float scatter on the extended reals and the array it starts from.

  At the ideal values a scatter with an additive body leaves at entry `i` the starting array's entry plus the
  finite sum of the updates that land on `i`; updates that land outside the array add nothing. The starting
  entry is a separate summand, so scattering into an array `x` is, entry by entry, `x` plus the scatter of the same
  updates into an array of zeros. Nothing here looks at where an update lands, and nothing needs a finite value:
  only `0 + s = s` and `1 * x = x` on the extended reals are used.
-/
import Idealize.ShloMosaic.PureOps.Ideal
import Idealize.ShloMosaic.PureOps.Ideal.Laws
import Idealize.ShloMosaic.PureOps.Contract
import Idealize.ShloMosaic.PureOps.Vector

noncomputable section

namespace Cert.LibScatterSeed

open Idealize.ShloMosaic

/-- The f32 word of 1.0 is the extended real 1. -/
theorem f32_one : Ideal.ofBits .f32 0x3F800000#32 = 1 := by
  simp [Ideal.ofBits, Ideal.ieee, -EReal.coe_mul]; norm_num

/-- Entry `i` of a scatter-add into `x` is `x i` plus entry `i` of the same scatter-add into an array `z` of zeros. -/
theorem scatterAdd_seed {s si su : Shape} {w : Nat} {φ : FTy} (d : ScatterDims s si su) (x z : FVec Ideal s φ)
    (idx : IVec si w) (upd : FVec Ideal su φ) (hz : ∀ i, z i = 0) (i : s.Idx) :
    Host.scatterAdd d x idx upd i = x i + Host.scatterAdd d z idx upd i := by
  show Ideal.hostScatterAdd d x idx upd i = x i + Ideal.hostScatterAdd d z idx upd i
  unfold Ideal.hostScatterAdd
  rw [hz i, zero_add]

/-- `o * x + scatterAdd z idx upd` with `o` an array of ones and `z` an array of zeros is the scatter-add into `x`
    itself: the sum `x + (the updates summed from zero)` written as one accumulation started from `x`. -/
theorem one_mul_add_scatterAdd_zero {s si su : Shape} {w : Nat} {φ : FTy} (d : ScatterDims s si su)
    (o x z : FVec Ideal s φ) (idx : IVec si w) (upd : FVec Ideal su φ) (ho : ∀ i, o i = 1) (hz : ∀ i, z i = 0) :
    addf (mulf o x) (Host.scatterAdd d z idx upd) = Host.scatterAdd d x idx upd := by
  funext i
  rw [scatterAdd_seed d x z idx upd hz i]
  show o i * x i + Host.scatterAdd d z idx upd i = _
  rw [ho i, one_mul]

end Cert.LibScatterSeed

end
-- ==== Proof.RefLayer.lean ====
/-
  The reference, read as the same linear layer.

  The reference computes `x_1` (each hyperedge's sum of its member rows), gathers it back along the incidences,
  accumulates those rows into an array of zeros (each node's sum over its incident hyperedges), adds `1 · x_0`, and
  applies `· Wᵀ + b`. Two readings:
  * `1 · x_0 + (the incidences' rows accumulated from zero)` is the same accumulation started from `x_0`: on the
    extended reals the starting entry is one more summand (`1 * x = x`, `0 + s = s`; no finiteness is needed);
  * the host's dot_general against the transposed weight plus the bias broadcast down the rows is, at entry (r, j),
    `(∑ k, h (r, k) * Wᵀ (k, j)) + b j`: the linear layer with the bias a vector.
-/
import proofs.«121955_j17892833755481_2_alg».proof.Proof.Gen.ReferenceIdeal.Read
import proofs.«121955_j17892833755481_2_alg».proof.Proof.LibScatterSeed
import proofs.«121955_j17892833755481_2_alg».proof.Proof.Layer

noncomputable section

namespace Cert.ReferenceIdeal.RefLayer

open Cert.ReferenceIdeal Cert.ReferenceIdeal.Gen Cert.ReferenceIdeal.Read Idealize.ShloMosaic Idealize.ShloMosaic.ValueIdx

/-- The row operand of the reference's matrix product, `1 · x_0 + m` with `m` accumulated from zeros, is the accumulation
    of the same rows into `x_0` itself. -/
theorem rows_seeded (x0 : (⟨S100000x256, .f32⟩ : BufTy).Contents (Elt Ideal)) (x1 x2 : (⟨S800000, .i32⟩ : BufTy).Contents (Elt Ideal)) :
    val_main_v22 (F := Ideal) x0 x1 x2
      = (Host.scatterAdd (F := Ideal) (φ := .f32) scatter_S100000x256_S800000x1_S800000x256_1_0_0_1 x0 (val_main_v18 (F := Ideal) x1)
          (val_main_v16 (F := Ideal) x0 x1 x2) : S100000x256.Idx → EReal) :=
  Cert.LibScatterSeed.one_mul_add_scatterAdd_zero scatter_S100000x256_S800000x1_S800000x256_1_0_0_1
    (val_main_v20 (F := Ideal)) x0 (val_main_v17 (F := Ideal)) (val_main_v18 (F := Ideal) x1) (val_main_v16 (F := Ideal) x0 x1 x2)
    (fun _ => Cert.LibScatterSeed.f32_one) (fun _ => Ideal.ofBits_zero_f32)

/-- The reference's first result is the linear layer of its row operand, the transposed weight and the bias vector. -/
theorem result_eq (x0 : (⟨S100000x256, .f32⟩ : BufTy).Contents (Elt Ideal)) (x1 x2 : (⟨S800000, .i32⟩ : BufTy).Contents (Elt Ideal))
    (x3 : (⟨S256x256, .f32⟩ : BufTy).Contents (Elt Ideal)) (x4 : (⟨S256, .f32⟩ : BufTy).Contents (Elt Ideal)) :
    val_main_v27 (F := Ideal) x0 x1 x2 x3 x4
      = Cert.Layer.vecBias (val_main_v22 (F := Ideal) x0 x1 x2) (val_main_v23 (F := Ideal) x3) x4 := by
  funext i
  rw [val_main_v27_apply, val_main_v24_apply, val_main_v26_apply, val_main_v25_apply]
  have el : ∀ k : Fin 256, lidx_main_v24 i k = ix2 (i 0) k := fun k => funext fun a => by
    match a with
    | ⟨0, _⟩ => rfl
    | ⟨1, _⟩ => rfl
  have er : ∀ k : Fin 256, ridx_main_v24 i k = ix2 k (i 1) := fun k => funext fun a => by
    match a with
    | ⟨0, _⟩ => rfl
    | ⟨1, _⟩ => rfl
  have eb : idx_main_v25 (idx_main_v26 i) = ix1 (i 1) := funext fun a => by
    match a with
    | ⟨0, _⟩ => rfl
  rw [eb]
  exact congrArg (· + x4 (ix1 (i 1))) (Finset.sum_congr rfl fun k _ => by rw [el k, er k]; rfl)

end Cert.ReferenceIdeal.RefLayer

end
-- ==== Proof.HostPrefix.lean ====
/-
  What the region finds in its operands' arrays, in the reference's own terms.

  Before the region the kernel's host program computes `x_1` exactly as the reference does, gathers it back along the
  incidences exactly as the reference does, and accumulates those rows into `x_0` itself (the reference accumulates them
  into zeros and adds `1 · x_0` afterwards: RefLayer's first lemma). It transposes the weight and narrows it to bf16
  (the identity on the extended reals), and reshapes the bias vector to one row. So, as functions of the argument arrays:
  the row operand is the reference's row operand, the weight is the reference's transposed weight, the bias row holds the
  bias vector, and `x_1` is the reference's `x_1`.
-/
import proofs.«121955_j17892833755481_2_alg».proof.Proof.Gen.KernelIdeal.Value
import proofs.«121955_j17892833755481_2_alg».proof.Proof.RefLayer
import Idealize.ShloMosaic.Lib.StableHlo.Run
import Idealize.ShloMosaic.Lib.ValueIdx
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- `x_1` as the region finds it is the reference's `x_1` of the same arguments. -/
theorem x1_eq (c : Dev nD) : V m c main_v9 = Cert.ReferenceIdeal.Read.val_main_v9 (F := Ideal)
    (m ((c : Thread nD τ).loc main_arg0)) (m ((c : Thread nD τ).loc main_arg1)) (m ((c : Thread nD τ).loc main_arg2)) := by
  dsimp only [Gen.V, Gen.hostOps0]
  after_results
  rfl

/-- The row operand: the incidences' rows accumulated into `x_0`, which is the reference's `1 · x_0 + m`. -/
theorem rows_eq (c : Dev nD) : V m c main_v18 = Cert.ReferenceIdeal.Read.val_main_v22 (F := Ideal)
    (m ((c : Thread nD τ).loc main_arg0)) (m ((c : Thread nD τ).loc main_arg1)) (m ((c : Thread nD τ).loc main_arg2)) := by
  refine Eq.trans ?_ (Cert.ReferenceIdeal.RefLayer.rows_seeded (m ((c : Thread nD τ).loc main_arg0))
    (m ((c : Thread nD τ).loc main_arg1)) (m ((c : Thread nD τ).loc main_arg2))).symm
  dsimp only [Gen.V, Gen.hostOps0]
  after_results_simp <;> rfl

/-- The weight: transposed, then narrowed to bf16, which changes no extended real. -/
theorem weight_eq (c : Dev nD) : (V m c main_v20 : S256x256.Idx → EReal) = Cert.ReferenceIdeal.Read.val_main_v23 (F := Ideal)
    (m ((c : Thread nD τ).loc main_arg3)) := by
  dsimp only [Gen.V, Gen.hostOps0]
  after_results
  rfl

/-- The bias row holds the bias vector. -/
theorem bias_eq (c : Dev nD) (q : Fin 256) :
    (V m c main_v21 : S1x256.Idx → EReal) (ix2 ⟨0, Nat.one_pos⟩ q) = m ((c : Thread nD τ).loc main_arg4) (ix1 q) := by
  dsimp only [Gen.V, Gen.hostOps0]
  after_results
  show shapeCast S1x256 (m ((c : Thread nD τ).loc main_arg4)) shapeCasts_S256_S1x256 (ix2 ⟨0, Nat.one_pos⟩ q) = _
  refine (shapeCast_addUnit_apply ![256] (m ((c : Thread nD τ).loc main_arg4)) shapeCasts_S256_S1x256 _).trans
    (congrArg (m ((c : Thread nD τ).loc main_arg4)) (funext fun a => ?_))
  match a with
  | ⟨0, _⟩ => rfl

end Cert.KernelIdeal.HostPrefix

end
-- ==== Proof.Bridge.lean ====
/-
  The kernel's run, stated in the reference's terms.

  After the run the output array is the linear layer of what the region found (KernelArray); what the region found is the
  reference's row operand, the reference's transposed weight and the bias vector in one row (HostPrefix); and the
  reference's first result is that same linear layer (RefLayer). So the kernel's first result is the reference's first
  result as a function of the argument arrays. The second result, `x_1`, is a host intermediate that the region does
  not touch: it ends as the region found it, which is the reference's `x_1`.
-/
import proofs.«121955_j17892833755481_2_alg».proof.Proof.KernelArray
import proofs.«121955_j17892833755481_2_alg».proof.Proof.HostPrefix

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The linear layer of what the region finds is the reference's first result of the same arguments. -/
theorem layer_eq (c : Dev nD) : WholeArray.layerOf m c = Cert.ReferenceIdeal.Read.val_main_v27 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  rw [Cert.ReferenceIdeal.RefLayer.result_eq]
  unfold WholeArray.layerOf
  rw [Cert.Layer.rowBias_eq_vecBias (V m c main_v18) (V m c main_v20) (V m c main_v21) (m ((c : Thread nD τ).loc main_arg4))
    (HostPrefix.bias_eq m c), HostPrefix.rows_eq m c, HostPrefix.weight_eq m c]

/-- Every weakly fair execution of the idealized kernel terminates with its two results at the reference's two
    functions of the argument arrays, the arguments unchanged. -/
theorem run : θ_run defs (onTc (τ := τ) (main (F := Ideal))) ⟨m, fun _ => 0, ρ⟩ fun r => ∀ c : Dev nD,
      r.2.mem ((c : Thread nD τ).loc main_v22) = Cert.ReferenceIdeal.Read.val_main_v27 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_v9) = Cert.ReferenceIdeal.Read.val_main_v9 (F := Ideal)
          (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(Value.post3 m r h c).trans ((WholeArray.final m c).trans (layer_eq m c)),
      ((h c).2 main_v9 (Pipeline.mem_restRefs_of main_v9 (by decide) (by decide))).trans (HostPrefix.x1_eq m c),
      Value.kept_main_arg0 m r h c,
      Value.kept_main_arg1 m r h c,
      Value.kept_main_arg2 m r h c,
      Value.kept_main_arg3 m r h c,
      Value.kept_main_arg4 m r h c⟩)
    (run_main m ρ)

end Cert.KernelIdeal.Bridge

end
-- ==== Proof.lean ====
/-
  Equivalence of a hypergraph GIN layer's kernel and its jnp reference on the extended reals.

  Both programs compute `x_1 = B₁ᵀ x_0` (each hyperedge's sum of its member nodes' rows, by a gather and an accumulating
  scatter) with the same host operations, and gather `x_1` back along the incidences. The reference then accumulates
  those rows into zeros, adds `1 · x_0`, and applies `· Wᵀ + b` with one dot_general; the kernel accumulates them into
  `x_0` itself on the host and applies `· Wᵀ + b` in a pallas_call over 50 bands of 2000 rows, the rows and the weight
  narrowed to bf16 and multiplied on the matrix unit into a zero accumulator.

  At the ideal values a change of float format is the identity, an accumulating scatter's starting entry is one more
  summand of a sum in a commutative monoid (`1 * x = x`, `0 + s = s`), the matrix unit's product into zero and the
  host's dot_general are the same row-by-column sum, and an entry of the layer reads one row of its row operand, so the
  bands are restrictions of one whole-array function. No step cancels, distributes or compares, so no finiteness is
  used: the precondition is never opened. The second result `x_1` is the same term of the arguments in both programs.

  The ideal pass rewrote nothing in the kernel, so `preserves` is `True`.
-/
import proofs.«121955_j17892833755481_2_alg».proof.Defs
import proofs.«121955_j17892833755481_2_alg».proof.Proof.Gen.Kernel
import proofs.«121955_j17892833755481_2_alg».proof.Proof.Gen.Kernel.Skeleton
import proofs.«121955_j17892833755481_2_alg».proof.Proof.Gen.Kernel.Launch
import proofs.«121955_j17892833755481_2_alg».proof.Proof.Gen.Kernel.Points
import proofs.«121955_j17892833755481_2_alg».proof.Proof.Gen.Kernel.Frame
import proofs.«121955_j17892833755481_2_alg».proof.Proof.Gen.KernelIdeal
import proofs.«121955_j17892833755481_2_alg».proof.Proof.Gen.KernelIdeal.Skeleton
import proofs.«121955_j17892833755481_2_alg».proof.Proof.Gen.KernelIdeal.Launch
import proofs.«121955_j17892833755481_2_alg».proof.Proof.Gen.KernelIdeal.Points
import proofs.«121955_j17892833755481_2_alg».proof.Proof.Gen.KernelIdeal.Frame
import proofs.«121955_j17892833755481_2_alg».proof.Proof.Gen.ReferenceIdeal
import proofs.«121955_j17892833755481_2_alg».proof.Proof.Gen.Pre_finite_inputs
import proofs.«121955_j17892833755481_2_alg».proof.Proof.Gen.KernelIdeal.Value
import proofs.«121955_j17892833755481_2_alg».proof.Proof.Gen.ReferenceIdeal.Run
import proofs.«121955_j17892833755481_2_alg».proof.Proof.Gen.ReferenceIdeal.Read
import proofs.«121955_j17892833755481_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the two results at the same two functions of the (agreeing) argument arrays: the linear layer
    of the rows accumulated into `x_0`, and `x_1`. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2]
    exact Cert.ReferenceIdeal.Read.val_main_v27_eq _ _ _ _ _
  · rw [(hagree c).1, (hagree c).2.1, (hagree c).2.2.1]
    exact Cert.ReferenceIdeal.Read.val_main_v9_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
